-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S512x64 : Shape := ⟨2, ![512, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x64 .f32) (main_arg1 : FVec F S512x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S8192x64 : Shape := ⟨2, ![8192, 64]⟩
abbrev S512x64 : Shape := ⟨2, ![512, 64]⟩
abbrev S64x512 : Shape := ⟨2, ![64, 512]⟩
abbrev S8192x512 : Shape := ⟨2, ![8192, 512]⟩
abbrev S1024x64 : Shape := ⟨2, ![1024, 64]⟩
abbrev S1024x512 : Shape := ⟨2, ![1024, 512]⟩
abbrev S32x64 : Shape := ⟨2, ![32, 64]⟩
abbrev S32x512 : Shape := ⟨2, ![32, 512]⟩
abbrev S32x1 : Shape := ⟨2, ![32, 1]⟩
abbrev S1x512 : Shape := ⟨2, ![1, 512]⟩
abbrev S32 : Shape := ⟨1, ![32]⟩

abbrev nBuf : Space → Nat
  | .hbm => 4
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S64x512, .f32⟩
  | .hbm, ⟨3, _⟩ => ⟨S8192x512, .f32⟩
  | .local _ .vmem, ⟨0, _⟩ => ⟨S1024x64, .f32⟩
  | .local _ .vmem, ⟨1, _⟩ => ⟨S1024x64, .f32⟩
  | .local _ .vmem, ⟨2, _⟩ => ⟨S64x512, .f32⟩
  | .local _ .vmem, ⟨3, _⟩ => ⟨S1024x512, .f32⟩
  | .local _ .vmem, ⟨4, _⟩ => ⟨S1024x512, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_2 : BitVec 32 := 32#32
  let v3 : BitVec 32 := Scalar.muli arg4 c32_i32_2
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_2 : BitVec 32 := 32#32
  let v3 : BitVec 32 := Scalar.muli arg4 c32_i32_2
  let v4 : BitVec 32 := v3
  let v5 : Index := Scalar.indexCast v4
  let c0_3 : Index := 0#32
  ![v5.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_2 : BitVec 32 := 32#32
  let v3 : BitVec 32 := Scalar.muli arg4 c32_i32_2
  let v4 : BitVec 32 := v3
  let v470 : Index := Scalar.indexCast v4
  let c0_8 : Index := 0#32
  ![v470.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x64_S64x512_1_0 : S512x64.Transposes [1, 0] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  h_S32x64 : 0 < S32x64.numel
  slices_S32x64_o0_0_S32x1 : S32x64.Slices ![0, 0] S32x1
  slices_S64x512_o0_0_S1x512 : S64x512.Slices ![0, 0] S1x512
  broadcasts_S32x1_S32x512 : S32x1.Broadcasts S32x512
  broadcasts_S1x512_S32x512 : S1x512.Broadcasts S32x512
  slices_S32x64_o0_1_S32x1 : S32x64.Slices ![0, 1] S32x1
  slices_S64x512_o1_0_S1x512 : S64x512.Slices ![1, 0] S1x512
  slices_S32x64_o0_2_S32x1 : S32x64.Slices ![0, 2] S32x1
  slices_S64x512_o2_0_S1x512 : S64x512.Slices ![2, 0] S1x512
  slices_S32x64_o0_3_S32x1 : S32x64.Slices ![0, 3] S32x1
  slices_S64x512_o3_0_S1x512 : S64x512.Slices ![3, 0] S1x512
  slices_S32x64_o0_4_S32x1 : S32x64.Slices ![0, 4] S32x1
  slices_S64x512_o4_0_S1x512 : S64x512.Slices ![4, 0] S1x512
  slices_S32x64_o0_5_S32x1 : S32x64.Slices ![0, 5] S32x1
  slices_S64x512_o5_0_S1x512 : S64x512.Slices ![5, 0] S1x512
  slices_S32x64_o0_6_S32x1 : S32x64.Slices ![0, 6] S32x1
  slices_S64x512_o6_0_S1x512 : S64x512.Slices ![6, 0] S1x512
  slices_S32x64_o0_7_S32x1 : S32x64.Slices ![0, 7] S32x1
  slices_S64x512_o7_0_S1x512 : S64x512.Slices ![7, 0] S1x512
  slices_S32x64_o0_8_S32x1 : S32x64.Slices ![0, 8] S32x1
  slices_S64x512_o8_0_S1x512 : S64x512.Slices ![8, 0] S1x512
  slices_S32x64_o0_9_S32x1 : S32x64.Slices ![0, 9] S32x1
  slices_S64x512_o9_0_S1x512 : S64x512.Slices ![9, 0] S1x512
  slices_S32x64_o0_10_S32x1 : S32x64.Slices ![0, 10] S32x1
  slices_S64x512_o10_0_S1x512 : S64x512.Slices ![10, 0] S1x512
  slices_S32x64_o0_11_S32x1 : S32x64.Slices ![0, 11] S32x1
  slices_S64x512_o11_0_S1x512 : S64x512.Slices ![11, 0] S1x512
  slices_S32x64_o0_12_S32x1 : S32x64.Slices ![0, 12] S32x1
  slices_S64x512_o12_0_S1x512 : S64x512.Slices ![12, 0] S1x512
  slices_S32x64_o0_13_S32x1 : S32x64.Slices ![0, 13] S32x1
  slices_S64x512_o13_0_S1x512 : S64x512.Slices ![13, 0] S1x512
  slices_S32x64_o0_14_S32x1 : S32x64.Slices ![0, 14] S32x1
  slices_S64x512_o14_0_S1x512 : S64x512.Slices ![14, 0] S1x512
  slices_S32x64_o0_15_S32x1 : S32x64.Slices ![0, 15] S32x1
  slices_S64x512_o15_0_S1x512 : S64x512.Slices ![15, 0] S1x512
  slices_S32x64_o0_16_S32x1 : S32x64.Slices ![0, 16] S32x1
  slices_S64x512_o16_0_S1x512 : S64x512.Slices ![16, 0] S1x512
  slices_S32x64_o0_17_S32x1 : S32x64.Slices ![0, 17] S32x1
  slices_S64x512_o17_0_S1x512 : S64x512.Slices ![17, 0] S1x512
  slices_S32x64_o0_18_S32x1 : S32x64.Slices ![0, 18] S32x1
  slices_S64x512_o18_0_S1x512 : S64x512.Slices ![18, 0] S1x512
  slices_S32x64_o0_19_S32x1 : S32x64.Slices ![0, 19] S32x1
  slices_S64x512_o19_0_S1x512 : S64x512.Slices ![19, 0] S1x512
  slices_S32x64_o0_20_S32x1 : S32x64.Slices ![0, 20] S32x1
  slices_S64x512_o20_0_S1x512 : S64x512.Slices ![20, 0] S1x512
  slices_S32x64_o0_21_S32x1 : S32x64.Slices ![0, 21] S32x1
  slices_S64x512_o21_0_S1x512 : S64x512.Slices ![21, 0] S1x512
  slices_S32x64_o0_22_S32x1 : S32x64.Slices ![0, 22] S32x1
  slices_S64x512_o22_0_S1x512 : S64x512.Slices ![22, 0] S1x512
  slices_S32x64_o0_23_S32x1 : S32x64.Slices ![0, 23] S32x1
  slices_S64x512_o23_0_S1x512 : S64x512.Slices ![23, 0] S1x512
  slices_S32x64_o0_24_S32x1 : S32x64.Slices ![0, 24] S32x1
  slices_S64x512_o24_0_S1x512 : S64x512.Slices ![24, 0] S1x512
  slices_S32x64_o0_25_S32x1 : S32x64.Slices ![0, 25] S32x1
  slices_S64x512_o25_0_S1x512 : S64x512.Slices ![25, 0] S1x512
  slices_S32x64_o0_26_S32x1 : S32x64.Slices ![0, 26] S32x1
  slices_S64x512_o26_0_S1x512 : S64x512.Slices ![26, 0] S1x512
  slices_S32x64_o0_27_S32x1 : S32x64.Slices ![0, 27] S32x1
  slices_S64x512_o27_0_S1x512 : S64x512.Slices ![27, 0] S1x512
  slices_S32x64_o0_28_S32x1 : S32x64.Slices ![0, 28] S32x1
  slices_S64x512_o28_0_S1x512 : S64x512.Slices ![28, 0] S1x512
  slices_S32x64_o0_29_S32x1 : S32x64.Slices ![0, 29] S32x1
  slices_S64x512_o29_0_S1x512 : S64x512.Slices ![29, 0] S1x512
  slices_S32x64_o0_30_S32x1 : S32x64.Slices ![0, 30] S32x1
  slices_S64x512_o30_0_S1x512 : S64x512.Slices ![30, 0] S1x512
  slices_S32x64_o0_31_S32x1 : S32x64.Slices ![0, 31] S32x1
  slices_S64x512_o31_0_S1x512 : S64x512.Slices ![31, 0] S1x512
  slices_S32x64_o0_32_S32x1 : S32x64.Slices ![0, 32] S32x1
  slices_S64x512_o32_0_S1x512 : S64x512.Slices ![32, 0] S1x512
  slices_S32x64_o0_33_S32x1 : S32x64.Slices ![0, 33] S32x1
  slices_S64x512_o33_0_S1x512 : S64x512.Slices ![33, 0] S1x512
  slices_S32x64_o0_34_S32x1 : S32x64.Slices ![0, 34] S32x1
  slices_S64x512_o34_0_S1x512 : S64x512.Slices ![34, 0] S1x512
  slices_S32x64_o0_35_S32x1 : S32x64.Slices ![0, 35] S32x1
  slices_S64x512_o35_0_S1x512 : S64x512.Slices ![35, 0] S1x512
  slices_S32x64_o0_36_S32x1 : S32x64.Slices ![0, 36] S32x1
  slices_S64x512_o36_0_S1x512 : S64x512.Slices ![36, 0] S1x512
  slices_S32x64_o0_37_S32x1 : S32x64.Slices ![0, 37] S32x1
  slices_S64x512_o37_0_S1x512 : S64x512.Slices ![37, 0] S1x512
  slices_S32x64_o0_38_S32x1 : S32x64.Slices ![0, 38] S32x1
  slices_S64x512_o38_0_S1x512 : S64x512.Slices ![38, 0] S1x512
  slices_S32x64_o0_39_S32x1 : S32x64.Slices ![0, 39] S32x1
  slices_S64x512_o39_0_S1x512 : S64x512.Slices ![39, 0] S1x512
  slices_S32x64_o0_40_S32x1 : S32x64.Slices ![0, 40] S32x1
  slices_S64x512_o40_0_S1x512 : S64x512.Slices ![40, 0] S1x512
  slices_S32x64_o0_41_S32x1 : S32x64.Slices ![0, 41] S32x1
  slices_S64x512_o41_0_S1x512 : S64x512.Slices ![41, 0] S1x512
  slices_S32x64_o0_42_S32x1 : S32x64.Slices ![0, 42] S32x1
  slices_S64x512_o42_0_S1x512 : S64x512.Slices ![42, 0] S1x512
  slices_S32x64_o0_43_S32x1 : S32x64.Slices ![0, 43] S32x1
  slices_S64x512_o43_0_S1x512 : S64x512.Slices ![43, 0] S1x512
  slices_S32x64_o0_44_S32x1 : S32x64.Slices ![0, 44] S32x1
  slices_S64x512_o44_0_S1x512 : S64x512.Slices ![44, 0] S1x512
  slices_S32x64_o0_45_S32x1 : S32x64.Slices ![0, 45] S32x1
  slices_S64x512_o45_0_S1x512 : S64x512.Slices ![45, 0] S1x512
  slices_S32x64_o0_46_S32x1 : S32x64.Slices ![0, 46] S32x1
  slices_S64x512_o46_0_S1x512 : S64x512.Slices ![46, 0] S1x512
  slices_S32x64_o0_47_S32x1 : S32x64.Slices ![0, 47] S32x1
  slices_S64x512_o47_0_S1x512 : S64x512.Slices ![47, 0] S1x512
  slices_S32x64_o0_48_S32x1 : S32x64.Slices ![0, 48] S32x1
  slices_S64x512_o48_0_S1x512 : S64x512.Slices ![48, 0] S1x512
  slices_S32x64_o0_49_S32x1 : S32x64.Slices ![0, 49] S32x1
  slices_S64x512_o49_0_S1x512 : S64x512.Slices ![49, 0] S1x512
  slices_S32x64_o0_50_S32x1 : S32x64.Slices ![0, 50] S32x1
  slices_S64x512_o50_0_S1x512 : S64x512.Slices ![50, 0] S1x512
  slices_S32x64_o0_51_S32x1 : S32x64.Slices ![0, 51] S32x1
  slices_S64x512_o51_0_S1x512 : S64x512.Slices ![51, 0] S1x512
  slices_S32x64_o0_52_S32x1 : S32x64.Slices ![0, 52] S32x1
  slices_S64x512_o52_0_S1x512 : S64x512.Slices ![52, 0] S1x512
  slices_S32x64_o0_53_S32x1 : S32x64.Slices ![0, 53] S32x1
  slices_S64x512_o53_0_S1x512 : S64x512.Slices ![53, 0] S1x512
  slices_S32x64_o0_54_S32x1 : S32x64.Slices ![0, 54] S32x1
  slices_S64x512_o54_0_S1x512 : S64x512.Slices ![54, 0] S1x512
  slices_S32x64_o0_55_S32x1 : S32x64.Slices ![0, 55] S32x1
  slices_S64x512_o55_0_S1x512 : S64x512.Slices ![55, 0] S1x512
  slices_S32x64_o0_56_S32x1 : S32x64.Slices ![0, 56] S32x1
  slices_S64x512_o56_0_S1x512 : S64x512.Slices ![56, 0] S1x512
  slices_S32x64_o0_57_S32x1 : S32x64.Slices ![0, 57] S32x1
  slices_S64x512_o57_0_S1x512 : S64x512.Slices ![57, 0] S1x512
  slices_S32x64_o0_58_S32x1 : S32x64.Slices ![0, 58] S32x1
  slices_S64x512_o58_0_S1x512 : S64x512.Slices ![58, 0] S1x512
  slices_S32x64_o0_59_S32x1 : S32x64.Slices ![0, 59] S32x1
  slices_S64x512_o59_0_S1x512 : S64x512.Slices ![59, 0] S1x512
  slices_S32x64_o0_60_S32x1 : S32x64.Slices ![0, 60] S32x1
  slices_S64x512_o60_0_S1x512 : S64x512.Slices ![60, 0] S1x512
  slices_S32x64_o0_61_S32x1 : S32x64.Slices ![0, 61] S32x1
  slices_S64x512_o61_0_S1x512 : S64x512.Slices ![61, 0] S1x512
  slices_S32x64_o0_62_S32x1 : S32x64.Slices ![0, 62] S32x1
  slices_S64x512_o62_0_S1x512 : S64x512.Slices ![62, 0] S1x512
  slices_S32x64_o0_63_S32x1 : S32x64.Slices ![0, 63] S32x1
  slices_S64x512_o63_0_S1x512 : S64x512.Slices ![63, 0] S1x512
  reduces_S32x512_S32 : S32x512.Reduces [1] S32
  shapeCasts_S32_S32x1 : S32.ShapeCasts S32x1
  h_S32x512 : 0 < S32x512.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x64.size a ≤ S1024x64.size a
  k0_off2_inb : ∀ k0_t1 : Fin k0_t1_loop.trips, ∀ a, (k0_off2 k0_t1) a + S32x512.size a ≤ S1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)

variable [Facts₀]

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S512x64 : Shape := ⟨2, ![512, 64]⟩
abbrev S8192x1x64 : Shape := ⟨3, ![8192, 1, 64]⟩
abbrev S1x512x64 : Shape := ⟨3, ![1, 512, 64]⟩
abbrev S8192x512x64 : Shape := ⟨3, ![8192, 512, 64]⟩
abbrev S_ : Shape := ⟨0, ![]⟩
abbrev S8192x512 : Shape := ⟨2, ![8192, 512]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S8192x1x64, .f32⟩
  | .hbm, ⟨3, _⟩ => ⟨S1x512x64, .f32⟩
  | .hbm, ⟨4, _⟩ => ⟨S8192x512x64, .f32⟩
  | .hbm, ⟨5, _⟩ => ⟨S8192x512x64, .f32⟩
  | .hbm, ⟨6, _⟩ => ⟨S8192x512x64, .f32⟩
  | .hbm, ⟨7, _⟩ => ⟨S8192x512x64, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x512, .f32⟩
  | .hbm, ⟨28, _⟩ => ⟨S8192x512, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S8192x64_S8192x1x64_0_2 : S8192x64.BroadcastsInDim S8192x1x64 (![0, 2] : Fin 2 → Fin S8192x1x64.rank)
  bcast_S512x64_S1x512x64_1_2 : S512x64.BroadcastsInDim S1x512x64 (![1, 2] : Fin 2 → Fin S1x512x64.rank)
  bcast_S8192x1x64_S8192x512x64_0_1_2 : S8192x1x64.BroadcastsInDim S8192x512x64 (![0, 1, 2] : Fin 3 → Fin S8192x512x64.rank)
  bcast_S1x512x64_S8192x512x64_0_1_2 : S1x512x64.BroadcastsInDim S8192x512x64 (![0, 1, 2] : Fin 3 → Fin S8192x512x64.rank)
  reducesTo_S8192x512x64_S8192x512_d2 : S8192x512x64.ReducesTo [2] S8192x512
  h_S_ : 0 < S_.numel
  bcast_S_S8192x512 : S_.BroadcastsInDim S8192x512 (![] : Fin 0 → Fin S8192x512.rank)
  reducesTo_S8192x512_S8192_d1 : S8192x512.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)

variable [Facts₀]

class Facts : Prop extends Facts₀ where

variable [Facts]
-- ==== Proof.Spec.lean ====
/-
  The function both programs compute, stated once over the extended reals.

  For a state row `a` (64 channels) and a codebook of 512 cell rows `B c`, the score of cell `c` is
  `u c = −(d c)² / 2` with `d c = Σ_k |a k − B c k|` the L1 distance, and the result is the softmax of the scores
  along the cells, in its stabilised form: `exp (u c − sup u) / Σ_j exp (u j − sup u)`.
  The result array `[8192, 512]` holds, at `(r, c)`, that value for row `r` of the states and the whole codebook.
  The same row function read on a block of rows of any height serves a tile of the states.
-/
import Idealize.ShloMosaic.PureOps.Ideal
import Idealize.ShloMosaic.Lib.ValueIdx

noncomputable section

open scoped BigOperators

namespace Cert.L1Softmax

open Idealize.ShloMosaic Idealize.ShloMosaic.ValueIdx

/-- The absolute value on the extended reals, as the larger of a number and its negative. -/
def absE (y : EReal) : EReal := max y (-y)

/-- The L1 distance of two 64-channel rows. -/
def dist (a b : Fin 64 → EReal) : EReal := ∑ k : Fin 64, absE (a k - b k)

/-- The number two, as the f32 word the programs print for it. -/
def two : EReal := Ideal.ofBits .f32 0x40000000#32

/-- A cell's score: minus the squared distance, halved. -/
def score (a b : Fin 64 → EReal) : EReal := Ideal.div (-(dist a b * dist a b)) two

/-- The stabilised softmax of 512 scores, at cell `c`. -/
def soft (u : Fin 512 → EReal) (c : Fin 512) : EReal :=
  Ideal.div (Ideal.exp (u c - Finset.univ.sup u)) (∑ j : Fin 512, Ideal.exp (u j - Finset.univ.sup u))

/-- One state row against the whole codebook (`B c` is cell `c`'s row), at cell `c`. -/
def softRow (a : Fin 64 → EReal) (B : Fin 512 → Fin 64 → EReal) (c : Fin 512) : EReal :=
  soft (fun j => score a (B j)) c

/-- A block of `R` state rows against the codebook given TRANSPOSED, `[64, 512]` (channel first): entry `(p, c)`. -/
def blockOf {R : ℕ} (x0 : (⟨2, ![R, 64]⟩ : Shape).Idx → EReal) (x1 : (⟨2, ![64, 512]⟩ : Shape).Idx → EReal) :
    (⟨2, ![R, 512]⟩ : Shape).Idx → EReal :=
  fun i => softRow (fun k => x0 (ix2 (i 0) k)) (fun c k => x1 (ix2 k c)) (i 1)

theorem blockOf_ix2 {R : ℕ} (x0 : (⟨2, ![R, 64]⟩ : Shape).Idx → EReal) (x1 : (⟨2, ![64, 512]⟩ : Shape).Idx → EReal)
    (p : Fin R) (c : Fin 512) :
    blockOf x0 x1 (ix2 p c) = softRow (fun k => x0 (ix2 p k)) (fun c k => x1 (ix2 k c)) c := rfl

/-- The whole result: entry `(r, c)` from the states `[8192, 64]` and the codebook `[512, 64]` (cell first). -/
def G (x : (⟨2, ![8192, 64]⟩ : Shape).Idx → EReal) (pc : (⟨2, ![512, 64]⟩ : Shape).Idx → EReal) :
    (⟨2, ![8192, 512]⟩ : Shape).Idx → EReal :=
  fun i => softRow (fun k => x (ix2 (i 0) k)) (fun c k => pc (ix2 c k)) (i 1)

theorem G_ix2 (x : (⟨2, ![8192, 64]⟩ : Shape).Idx → EReal) (pc : (⟨2, ![512, 64]⟩ : Shape).Idx → EReal)
    (r : Fin 8192) (c : Fin 512) :
    G x pc (ix2 r c) = softRow (fun k => x (ix2 r k)) (fun c k => pc (ix2 c k)) c := rfl

/-- A sum of 64 terms accumulated one after the other from zero, as the kernel's channel loop spells it, is the sum. -/
theorem sum64 (t : Fin 64 → EReal) :
    0 + t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 + t 31
      + t 32 + t 33 + t 34 + t 35 + t 36 + t 37 + t 38 + t 39 + t 40 + t 41 + t 42 + t 43 + t 44 + t 45 + t 46 + t 47
      + t 48 + t 49 + t 50 + t 51 + t 52 + t 53 + t 54 + t 55 + t 56 + t 57 + t 58 + t 59 + t 60 + t 61 + t 62 + t 63
      = ∑ k : Fin 64, t k := by
  simp only [Fin.sum_univ_castSucc, Finset.univ_eq_empty, Finset.sum_empty]
  rfl

end Cert.L1Softmax

end
-- ==== Proof.ChunkPay.lean ====
/-
  What one trip of the kernel's row loop stores, as ONE function of the two values it reads: the resident block of the
  transposed codebook `v1 : [64, 512]` and the trip's 32 state rows `v6 : [32, 64]`.  The printed body is cut into
  consecutive windows of statements, each a function of the values bound before it; this module only composes those
  functions in the order the body runs them, so that everything after it speaks of one term.
-/
import proofs.«117230_j1503238553823_2_alg».proof.Proof.Gen.KernelIdeal.Skeleton

noncomputable section

namespace Cert.KernelIdeal.Chunk

open Cert.KernelIdeal Cert.KernelIdeal.Gen Idealize.ShloMosaic

variable {F : FTy → Type} [FloatOps F]

/-- The running sum of `|x − cell|` over channels 0 … 57, for every (row, cell) pair of the chunk. -/
def acc58 (v1 : FVec F S64x512 .f32) (v6 : Vec F S32x64 .f32) : FVec F S32x512 .f32 :=
  k0_pay17 v1 v6
    (k0_pay15 v1 v6
      (k0_pay12 v1 v6
        (k0_pay11 v1 v6
          (k0_pay8 v1 v6
            (k0_pay6 v1 v6 (k0_pay3 v1 v6) (k0_pay4 v6) (k0_pay5 v1))
            (k0_pay7 v1 v6))
          (k0_pay9 v1) (k0_pay10 v6)))
      (k0_pay13 v6) (k0_pay14 v1))
    (k0_pay16 v6)

/-- The chunk's 32 × 512 softmax weights before normalisation: `exp` of the scores minus each row's largest. -/
def expPart (v1 : FVec F S64x512 .f32) (v6 : Vec F S32x64 .f32) : FVec F S32x512 .f32 :=
  k0_pay19 v1 v6 (acc58 v1 v6) (k0_pay18 v1 v6)

/-- Their row sums, kept as a one-column array. -/
def sumPart (v1 : FVec F S64x512 .f32) (v6 : Vec F S32x64 .f32) : FVec F S32x1 .f32 :=
  k0_pay20 v1 v6 (acc58 v1 v6) (k0_pay18 v1 v6)

/-- What the trip stores: the weights divided by their row sums. -/
def chunkPay (v1 : FVec F S64x512 .f32) (v6 : Vec F S32x64 .f32) : FVec F S32x512 .f32 :=
  k0_pay2 (expPart v1 v6) (sumPart v1 v6)

end Cert.KernelIdeal.Chunk

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.ChunkValue.lean ====
/-
  What one trip of the row loop stores, read entry by entry over the extended reals.

  From the transposed codebook block `v1 : [64, 512]` and the trip's 32 state rows `v6 : [32, 64]` the trip forms,
  for every row `p` and cell `q`, the sum over the 64 channels `k` of `|v6 (p, k) − v1 (k, q)|` accumulated one
  channel after the other from zero, squares it, negates and halves it into the score `u (p, q)`, subtracts the
  row's largest score, exponentiates, and divides by the row's sum of those exponentials.  Each layout step read at
  an entry is its operand at one entry, each arithmetic step is the extended reals' own, the 64-term accumulation
  is the sum over the channels, the row maximum is the supremum and the row sum the sum: so the stored entry
  `(p, q)` is the stabilised softmax of row `p`'s scores at cell `q`, the specification's block function.
-/
import proofs.«117230_j1503238553823_2_alg».proof.Proof.Spec
import proofs.«117230_j1503238553823_2_alg».proof.Proof.ChunkPay
import proofs.«117230_j1503238553823_2_alg».proof.Proof.LibKeepdims
import proofs.«117230_j1503238553823_2_alg».proof.Proof.LibRowMax
import Idealize.ShloMosaic.Lib.ValueIdx
import Idealize.ShloMosaic.Lib.Pipeline.Value
import Idealize.ShloMosaic.PureOps.Ideal.Laws

noncomputable section

open scoped BigOperators

namespace Cert.KernelIdeal.ChunkValue

open Idealize.ShloMosaic Idealize.ShloMosaic.ValueIdx Cert.KernelIdeal Cert.KernelIdeal.Gen Cert.KernelIdeal.Chunk Cert.L1Softmax

/-- A column of the state block spread across the cells reads, at row `p` and any cell, the state's entry
    `(p, n)`. -/
theorem rowSlice_apply (v6 : Vec Ideal S32x64 .f32) (n : ℕ) (h1 : S32x64.Slices ![0, n] S32x1)
    (hb1 : S32x1.Broadcasts S32x512) (p : Fin 32) (q : Fin 512) :
    broadcastTo S32x512 (extractStridedSlice S32x1 ![0, n] v6 h1) hb1 (ix2 p q)
      = v6 (ix2 p ⟨n, Nat.lt_of_succ_le (h1.2 1)⟩) := by
  refine (Cert.LibKeepdims.broadcastTo_a1_ab_apply _ hb1 p q).trans ?_
  refine extractStridedSlice_apply _ v6 h1 _ _ fun a => ?_
  match a with
  | ⟨0, _⟩ => exact (Nat.zero_add _).symm
  | ⟨1, _⟩ => rfl

/-- A row of the transposed codebook spread across the state rows reads, at any row and cell `q`, the codebook's
    entry `(n, q)`. -/
theorem colSlice_apply (v1 : FVec Ideal S64x512 .f32) (n : ℕ) (h2 : S64x512.Slices ![n, 0] S1x512)
    (hb2 : S1x512.Broadcasts S32x512) (p : Fin 32) (q : Fin 512) :
    broadcastTo S32x512 (extractStridedSlice S1x512 ![n, 0] v1 h2) hb2 (ix2 p q)
      = v1 (ix2 ⟨n, Nat.lt_of_succ_le (h2.2 0)⟩ q) := by
  refine (broadcastTo_apply _ hb2 (ix2 p q) (ix2 (0 : Fin 1) q) fun a => ?_).trans ?_
  · match a with
    | ⟨0, _⟩ => rfl
    | ⟨1, _⟩ => rfl
  · refine extractStridedSlice_apply _ v1 h2 _ _ fun a => ?_
    match a with
    | ⟨0, _⟩ => rfl
    | ⟨1, _⟩ => exact (Nat.zero_add _).symm

/-- One channel's term: the absolute difference of the state's entry `(p, n)` and the codebook's entry `(n, q)`. -/
theorem term_apply (v1 : FVec Ideal S64x512 .f32) (v6 : Vec Ideal S32x64 .f32) (n : ℕ)
    (h1 : S32x64.Slices ![0, n] S32x1) (h2 : S64x512.Slices ![n, 0] S1x512)
    (hb1 : S32x1.Broadcasts S32x512) (hb2 : S1x512.Broadcasts S32x512) (p : Fin 32) (q : Fin 512) :
    absf (subf (broadcastTo S32x512 (extractStridedSlice S32x1 ![0, n] v6 h1) hb1)
        (broadcastTo S32x512 (extractStridedSlice S1x512 ![n, 0] v1 h2) hb2)) (ix2 p q)
      = absE (v6 (ix2 p ⟨n, Nat.lt_of_succ_le (h1.2 1)⟩) - v1 (ix2 ⟨n, Nat.lt_of_succ_le (h2.2 0)⟩ q)) := by
  show absE (broadcastTo S32x512 (extractStridedSlice S32x1 ![0, n] v6 h1) hb1 (ix2 p q)
      - broadcastTo S32x512 (extractStridedSlice S1x512 ![n, 0] v1 h2) hb2 (ix2 p q)) = _
  rw [rowSlice_apply, colSlice_apply]

section Factor

variable {F : FTy → Type} [FloatOps F]

/-- The running sum of `|x − cell|` through the last channel, from the sum through channel 57 and channel 58's
    difference. -/
def accAll (v1 : FVec F S64x512 .f32) (v6 : Vec F S32x64 .f32) (v413 : FVec F S32x512 .f32)
    (v418 : FVec F S32x512 .f32) : FVec F S32x512 .f32 :=
  have v419 : FVec F S32x512 .f32 := absf v418
  have v420 : FVec F S32x512 .f32 := addf v413 v419
  have v421 : FVec F S32x1 .f32 := extractStridedSlice S32x1 ![0, 59] v6 slices_S32x64_o0_59_S32x1
  have v422 : FVec F S1x512 .f32 := extractStridedSlice S1x512 ![59, 0] v1 slices_S64x512_o59_0_S1x512
  have v423 : FVec F S32x512 .f32 := broadcastTo S32x512 v421 broadcasts_S32x1_S32x512
  have v424 : FVec F S32x512 .f32 := broadcastTo S32x512 v422 broadcasts_S1x512_S32x512
  have v425 : FVec F S32x512 .f32 := subf v423 v424
  have v426 : FVec F S32x512 .f32 := absf v425
  have v427 : FVec F S32x512 .f32 := addf v420 v426
  have v428 : FVec F S32x1 .f32 := extractStridedSlice S32x1 ![0, 60] v6 slices_S32x64_o0_60_S32x1
  have v429 : FVec F S1x512 .f32 := extractStridedSlice S1x512 ![60, 0] v1 slices_S64x512_o60_0_S1x512
  have v430 : FVec F S32x512 .f32 := broadcastTo S32x512 v428 broadcasts_S32x1_S32x512
  have v431 : FVec F S32x512 .f32 := broadcastTo S32x512 v429 broadcasts_S1x512_S32x512
  have v432 : FVec F S32x512 .f32 := subf v430 v431
  have v433 : FVec F S32x512 .f32 := absf v432
  have v434 : FVec F S32x512 .f32 := addf v427 v433
  have v435 : FVec F S32x1 .f32 := extractStridedSlice S32x1 ![0, 61] v6 slices_S32x64_o0_61_S32x1
  have v436 : FVec F S1x512 .f32 := extractStridedSlice S1x512 ![61, 0] v1 slices_S64x512_o61_0_S1x512
  have v437 : FVec F S32x512 .f32 := broadcastTo S32x512 v435 broadcasts_S32x1_S32x512
  have v438 : FVec F S32x512 .f32 := broadcastTo S32x512 v436 broadcasts_S1x512_S32x512
  have v439 : FVec F S32x512 .f32 := subf v437 v438
  have v440 : FVec F S32x512 .f32 := absf v439
  have v441 : FVec F S32x512 .f32 := addf v434 v440
  have v442 : FVec F S32x1 .f32 := extractStridedSlice S32x1 ![0, 62] v6 slices_S32x64_o0_62_S32x1
  have v443 : FVec F S1x512 .f32 := extractStridedSlice S1x512 ![62, 0] v1 slices_S64x512_o62_0_S1x512
  have v444 : FVec F S32x512 .f32 := broadcastTo S32x512 v442 broadcasts_S32x1_S32x512
  have v445 : FVec F S32x512 .f32 := broadcastTo S32x512 v443 broadcasts_S1x512_S32x512
  have v446 : FVec F S32x512 .f32 := subf v444 v445
  have v447 : FVec F S32x512 .f32 := absf v446
  have v448 : FVec F S32x512 .f32 := addf v441 v447
  have v449 : FVec F S32x1 .f32 := extractStridedSlice S32x1 ![0, 63] v6 slices_S32x64_o0_63_S32x1
  have v450 : FVec F S1x512 .f32 := extractStridedSlice S1x512 ![63, 0] v1 slices_S64x512_o63_0_S1x512
  have v451 : FVec F S32x512 .f32 := broadcastTo S32x512 v449 broadcasts_S32x1_S32x512
  have v452 : FVec F S32x512 .f32 := broadcastTo S32x512 v450 broadcasts_S1x512_S32x512
  have v453 : FVec F S32x512 .f32 := subf v451 v452
  have v454 : FVec F S32x512 .f32 := absf v453
  have v455 : FVec F S32x512 .f32 := addf v448 v454
  v455

/-- The scores of a block of distances: minus the square, halved. -/
def scoreOf (d : FVec F S32x512 .f32) : FVec F S32x512 .f32 :=
  divf (subf (broadcast S32x512 (Scalar.ofBits .f32 0x00000000#32)) (mulf d d))
    (broadcast S32x512 (Scalar.ofBits .f32 0x40000000#32))

/-- Each row's largest entry, spread back across the row. -/
def rowMaxOf (u : FVec F S32x512 .f32) : FVec F S32x512 .f32 :=
  broadcastTo S32x512
    (shapeCast S32x1 (multiReduction .maximumf [1] S32 u 0xFF800000#32 reduces_S32x512_S32 (.inl rfl) rfl)
      shapeCasts_S32_S32x1)
    broadcasts_S32x1_S32x512

/-- The exponentials of a block's entries less their row's largest. -/
def expOf (u : FVec F S32x512 .f32) : FVec F S32x512 .f32 := exp (subf u (rowMaxOf u))

/-- The unnormalised weights are the exponentials of the scores of the accumulated distances. -/
theorem k0_pay19_eq (v1 : FVec F S64x512 .f32) (v6 : Vec F S32x64 .f32) (v413 v418 : FVec F S32x512 .f32) :
    k0_pay19 v1 v6 v413 v418 = expOf (scoreOf (accAll v1 v6 v413 v418)) := rfl

end Factor

/-- The accumulated distance at row `p` and cell `q` is the L1 distance of state row `p` and the codebook's cell
    `q`: each of the 64 accumulated terms is one channel's absolute difference, and the zero word is zero. -/
theorem accAll_apply (v1 : FVec Ideal S64x512 .f32) (v6 : Vec Ideal S32x64 .f32) (p : Fin 32) (q : Fin 512) :
    accAll v1 v6 (acc58 v1 v6) (k0_pay18 v1 v6) (ix2 p q)
      = dist (fun k => v6 (ix2 p k)) (fun k => v1 (ix2 k q)) := by
  unfold accAll acc58 k0_pay18 k0_pay17 k0_pay16 k0_pay15 k0_pay14 k0_pay13 k0_pay12 k0_pay11 k0_pay10 k0_pay9 k0_pay8
    k0_pay7 k0_pay6 k0_pay5 k0_pay4 k0_pay3
  dsimp only
  simp only [addf_apply, term_apply, broadcast_apply]
  rw [show (Scalar.ofBits .f32 0x00000000#32 : Ideal .f32) = (0 : EReal) from Ideal.ofBits_zero_f32]
  exact sum64 (fun k => absE (v6 (ix2 p k) - v1 (ix2 k q)))

/-- A block's score at an entry is minus the squared distance there, halved: the zero word is zero and
    `0 − y = −y`. -/
theorem scoreOf_apply (d : FVec Ideal S32x512 .f32) (i : S32x512.Idx) :
    scoreOf d i = Ideal.div (-(d i * d i)) two := by
  show Ideal.div (Ideal.ofBits .f32 0x00000000#32 - d i * d i) two = _
  rw [Ideal.ofBits_zero_f32, zero_sub]

/-- Each row's largest entry, read at any cell of the row, is the supremum of the row's entries. -/
theorem rowMaxOf_apply (u : FVec Ideal S32x512 .f32) (p : Fin 32) (q : Fin 512) :
    rowMaxOf u (ix2 p q) = Finset.univ.sup fun k : Fin 512 => u (ix2 p k) := by
  unfold rowMaxOf
  refine (Cert.LibKeepdims.broadcastTo_a1_ab_apply _ _ p q).trans ?_
  refine (Cert.LibKeepdims.shapeCast_a_a1_apply _ _ p 0).trans ?_
  exact Cert.LibRowMax.multiReduction_max_rows_apply u _ _ _ p

/-- The exponentials at an entry: `exp` of the entry less the supremum of its row. -/
theorem expOf_apply (u : FVec Ideal S32x512 .f32) (p : Fin 32) (q : Fin 512) :
    expOf u (ix2 p q) = Ideal.exp (u (ix2 p q) - Finset.univ.sup fun k : Fin 512 => u (ix2 p k)) := by
  show Ideal.exp (u (ix2 p q) - rowMaxOf u (ix2 p q)) = _
  rw [rowMaxOf_apply]

/-- The unnormalised weight at row `p` and cell `q`: `exp` of the cell's score less the largest score of the row. -/
theorem expPart_apply (v1 : FVec Ideal S64x512 .f32) (v6 : Vec Ideal S32x64 .f32) (p : Fin 32) (q : Fin 512) :
    expPart v1 v6 (ix2 p q)
      = Ideal.exp (score (fun k => v6 (ix2 p k)) (fun k => v1 (ix2 k q))
          - Finset.univ.sup fun j : Fin 512 => score (fun k => v6 (ix2 p k)) (fun k => v1 (ix2 k j))) := by
  unfold expPart
  rw [k0_pay19_eq, expOf_apply]
  simp only [scoreOf_apply, accAll_apply]
  rfl

/-- The row sums' one column holds, at row `p`, the sum of the row's unnormalised weights. -/
theorem sumPart_apply (v1 : FVec Ideal S64x512 .f32) (v6 : Vec Ideal S32x64 .f32) (p : Fin 32) :
    sumPart v1 v6 (ix2 p (0 : Fin 1)) = ∑ j : Fin 512, expPart v1 v6 (ix2 p j) := by
  unfold sumPart k0_pay20
  refine (Cert.LibKeepdims.shapeCast_a_a1_apply _ _ p 0).trans ?_
  exact Cert.LibKeepdims.multiReduction_add_rows_apply _ _ _ _ p

/-- A block divided by a one-column array spread across its rows reads, at an entry, the entry divided by its row's
    one value. -/
theorem k0_pay2_apply (e : FVec Ideal S32x512 .f32) (s : FVec Ideal S32x1 .f32) (p : Fin 32) (q : Fin 512) :
    k0_pay2 e s (ix2 p q) = Ideal.div (e (ix2 p q)) (s (ix2 p (0 : Fin 1))) := by
  show Ideal.div (e (ix2 p q)) (broadcastTo S32x512 s broadcasts_S32x1_S32x512 (ix2 p q)) = _
  rw [Cert.LibKeepdims.broadcastTo_a1_ab_apply]

/-- What one trip stores is, entry by entry, the stabilised softmax of the trip's state rows' scores against the
    codebook: the specification's block function. -/
theorem chunkPay_apply (v1 : FVec Ideal Cert.KernelIdeal.S64x512 .f32) (v6 : Vec Ideal Cert.KernelIdeal.S32x64 .f32)
    (p : Fin 32) (q : Fin 512) :
    Cert.KernelIdeal.Chunk.chunkPay (F := Ideal) v1 v6 (ix2 p q) = Cert.L1Softmax.blockOf v6 v1 (ix2 p q) := by
  unfold chunkPay
  rw [k0_pay2_apply, sumPart_apply]
  simp only [expPart_apply]
  rfl

end Cert.KernelIdeal.ChunkValue

end
-- ==== Proof.TripPiece.lean ====
/-
  What the kernel's row loop leaves in the output block, as a list of stores.  Trip `k` of the 32 loads rows
  `32·k … 32·k + 31` of the tile of states, computes the chunk's softmax rows against the resident codebook and stores
  them over rows `32·k … 32·k + 31` of the output tile: ONE store per trip, whose value is `chunkPay` of the codebook
  block and the loaded rows.  The whole body's stores are the trips' stores, last trip first.
-/
import proofs.«117230_j1503238553823_2_alg».proof.Proof.Gen.KernelIdeal.Frame
import proofs.«117230_j1503238553823_2_alg».proof.Proof.ChunkPay

noncomputable section

namespace Cert.KernelIdeal.Trip

open Cert.KernelIdeal Cert.KernelIdeal.Gen Cert.KernelIdeal.Chunk
open Idealize.ShloMosaic Idealize.ShloMosaic.TcCoe Idealize.ShloMosaic.Tactic
open Idealize.SL Idealize.SL.Sem

variable {F : FTy → Type} [FloatOps F]

/-- Trip `k`'s one store: at rows `32·k …` of the output tile, the chunk computed from the codebook block and the
    32 state rows the trip loads. -/
theorem tripL_eq (𝒱 : Variants) (c : Dev nD) (bd : Option 𝒱.V) (i : grid0.Coords)
    (arg1 : Memref sig .tc .vmem S1024x64 .f32) (harg1 : arg1.IsWhole) (arg2 : Memref sig .tc .vmem S64x512 .f32) (harg2 : arg2.IsWhole)
    (arg3 : Memref sig .tc .vmem S1024x512 .f32) (harg3 : arg3.IsWhole) (v0 : Vec F S64x512 .f32)
    (X_arg1 : BufTy.Contents (Elt F) arg1.view.ty) (k : Fin k0_t1_loop.trips) :
    tripL_k0_t1 (F := F) 𝒱 c bd i arg1 harg1 arg2 harg2 arg3 harg3 v0 X_arg1 k
      = [(⟨Rect.unit (s := S1024x512) (k0_off2 k) S32x512.size (k0_off2_inb k),
            chunkPay (k0_pay1 v0) (View.readAt (Elt F) arg1.view
              (Rect.unit (s := S1024x64) (k0_off1 k) S32x64.size (k0_off1_inb k)).toLoadRect X_arg1)⟩ :
          View.Piece (Elt F) S1024x512 .f32)] := by
  unfold tripL_k0_t1 trip_k0_t1
  dsimp only
  sl_unfold_run_names
  rfl

/-- The body's stores into the output tile: those of the 32 trips, over the codebook block as the body loads it and
    the tile of states as it finds it. -/
theorem run_pieces_eq (c : Dev nD) (i : grid0.Coords)
    (arg1 : Memref sig .tc .vmem S1024x64 .f32) (harg1 : arg1.IsWhole) (arg2 : Memref sig .tc .vmem S64x512 .f32) (harg2 : arg2.IsWhole)
    (arg3 : Memref sig .tc .vmem S1024x512 .f32) (harg3 : arg3.IsWhole) (x0 : Vec F S1024x64 .f32) (x1 : Vec F S64x512 .f32) :
    (kernelRun0_A c i arg1 harg1 arg2 harg2 arg3 harg3 x0 x1).1
      = pb_k0_t1 (F := F) Variants.none c none i arg1 harg1 arg2 harg2 arg3 harg3
          (View.readAt (Elt F) arg2.view (Rect.unit (s := S64x512) ![0, 0] S64x512.size inb_S64x512_S64x512_0_0).toLoadRect (harg2.unread x1))
          (harg1.unread x0) k0_t1_loop.trips := by
  unfold kernelRun0_A
  rfl

end Cert.KernelIdeal.Trip

end
-- ==== Proof.BlockValue.lean ====
/-
  The output tile after the kernel body, as one function of the two tiles it reads: every row `P` of the 1024-row
  tile of states is stored by exactly the trip `P / 32`, as row `P % 32` of that trip's chunk, and the chunk's row is
  the softmax row of the state row against the codebook.  So each of the 32 stores is the restriction of ONE function
  of the tile's index — `blockOf x0 x1` — to its rows, and stores that all restrict one function leave that function
  wherever they cover; they cover the tile.
-/
import proofs.«117230_j1503238553823_2_alg».proof.Proof.TripPiece
import proofs.«117230_j1503238553823_2_alg».proof.Proof.Spec
import Idealize.ShloMosaic.Lib.Pipeline.Value
import Idealize.ShloMosaic.Lib.ValueIdx

noncomputable section

namespace Cert.KernelIdeal.Block

open Cert.KernelIdeal Cert.KernelIdeal.Gen Cert.KernelIdeal.Chunk Cert.KernelIdeal.Trip Cert.L1Softmax
open Idealize.ShloMosaic Idealize.ShloMosaic.TcCoe Idealize.ShloMosaic.ValueIdx
open Idealize.SL Idealize.SL.Sem

/-- The chunk law the tile's value rests on: a trip's stored value at row `p`, cell `q` is the softmax row of the
    trip's `p`-th state row against the codebook block. -/
def ChunkLaw : Prop :=
  ∀ (v1 : FVec Ideal S64x512 .f32) (v6 : Vec Ideal S32x64 .f32) (p : Fin 32) (q : Fin 512),
    chunkPay (F := Ideal) v1 v6 (ix2 p q) = blockOf v6 v1 (ix2 p q)

theorem trips_le (k : Fin k0_t1_loop.trips) : k.val < 32 := Nat.lt_of_lt_of_le k.isLt k0_t1_abs.2.1

theorem hz : (![0, 0] : Fin 2 → Nat) = fun _ => 0 := funext fun a => by fin_cases a <;> rfl

/-- The codebook block as the body holds it (loaded whole, then cast to its own shape) is the block. -/
theorem codebook_read (arg2 : Memref sig .tc .vmem S64x512 .f32) (harg2 : arg2.IsWhole) (x1 : Vec Ideal S64x512 .f32) :
    k0_pay1 (F := Ideal) (View.readAt (Elt Ideal) arg2.view
      (Rect.unit (s := S64x512) ![0, 0] S64x512.size inb_S64x512_S64x512_0_0).toLoadRect (harg2.unread x1)) = x1 := by
  unfold k0_pay1
  rw [shapeCast_self, View.readAt_eq_ld, harg2.read_unread, View.ld_unit_zero (S := S64x512) hz]

/-- Row `p` of what trip `k` loads is row `32·k + p` of the tile of states. -/
theorem rows_read (arg1 : Memref sig .tc .vmem S1024x64 .f32) (harg1 : arg1.IsWhole) (x0 : Vec Ideal S1024x64 .f32)
    (k : Fin k0_t1_loop.trips) (p : Fin 32) (d : Fin 64) :
    View.readAt (Elt Ideal) arg1.view (Rect.unit (s := S1024x64) (k0_off1 k) S32x64.size (k0_off1_inb k)).toLoadRect
        (harg1.unread x0) (ix2 p d)
      = x0 (ix2 (⟨32 * k.val + p.val, by have := trips_le k; have := p.isLt; omega⟩ : Fin 1024) d) := by
  rw [View.readAt_eq_ld, harg1.read_unread]
  show x0 ((Rect.unit (s := S1024x64) (k0_off1 k) S32x64.size (k0_off1_inb k)).idx (ix2 p d)) = _
  refine congrArg x0 (funext fun a => Fin.ext ?_)
  have h0 : ∀ h, k0_off1 k ⟨0, h⟩ = 32 * k.val := fun _ => by rw [k0_off1_eq k]; rfl
  have h1 : ∀ h, k0_off1 k ⟨1, h⟩ = 0 := fun _ => by rw [k0_off1_eq k]; rfl
  match a with
  | ⟨0, h⟩ =>
    simp only [LoadRect.idx_apply, Rect.off_unit, Rect.stride_unit, Nat.one_mul, h0]
  | ⟨1, h⟩ =>
    simp only [LoadRect.idx_apply, Rect.off_unit, Rect.stride_unit, Nat.one_mul, h1, Nat.zero_add]

/-- Entry `(p, q)` of trip `k`'s store sits at `(32·k + p, q)` of the output tile. -/
theorem store_emb (k : Fin k0_t1_loop.trips) (p : Fin 32) (q : Fin 512) :
    (Rect.unit (s := S1024x512) (k0_off2 k) S32x512.size (k0_off2_inb k)).emb (ix2 p q)
      = ix2 (⟨32 * k.val + p.val, by have := trips_le k; have := p.isLt; omega⟩ : Fin 1024) q := by
  funext a
  apply Fin.ext
  have h0 : ∀ h, k0_off2 k ⟨0, h⟩ = 32 * k.val := fun _ => by rw [k0_off2_eq k]; rfl
  have h1 : ∀ h, k0_off2 k ⟨1, h⟩ = 0 := fun _ => by rw [k0_off2_eq k]; rfl
  match a with
  | ⟨0, h⟩ =>
    simp only [Rect.emb_apply, Rect.off_unit, Rect.stride_unit, Nat.one_mul, h0]
  | ⟨1, h⟩ =>
    simp only [Rect.emb_apply, Rect.off_unit, Rect.stride_unit, Nat.one_mul, h1, Nat.zero_add]

/-- Trip `k`'s store is the restriction of the tile's function to its rows. -/
theorem trip_piece_agrees (hchunk : ChunkLaw)
    (arg1 : Memref sig .tc .vmem S1024x64 .f32) (harg1 : arg1.IsWhole) (arg2 : Memref sig .tc .vmem S64x512 .f32) (harg2 : arg2.IsWhole)
    (x0 : Vec Ideal S1024x64 .f32) (x1 : Vec Ideal S64x512 .f32) (k : Fin k0_t1_loop.trips) (y : S32x512.Idx) :
    chunkPay (F := Ideal) (k0_pay1 (View.readAt (Elt Ideal) arg2.view
        (Rect.unit (s := S64x512) ![0, 0] S64x512.size inb_S64x512_S64x512_0_0).toLoadRect (harg2.unread x1)))
      (View.readAt (Elt Ideal) arg1.view (Rect.unit (s := S1024x64) (k0_off1 k) S32x64.size (k0_off1_inb k)).toLoadRect
        (harg1.unread x0)) y
      = blockOf x0 x1 ((Rect.unit (s := S1024x512) (k0_off2 k) S32x512.size (k0_off2_inb k)).emb y) := by
  obtain ⟨p, q, rfl⟩ : ∃ (p : Fin 32) (q : Fin 512), y = ix2 p q := ⟨y 0, y 1, eq_ix2 y⟩
  rw [codebook_read, hchunk, store_emb, blockOf_ix2, blockOf_ix2]
  refine congrArg (fun a => softRow a (fun c k => x1 (ix2 k c)) q) (funext fun d => ?_)
  exact rows_read arg1 harg1 x0 k p d

/-- Every store of the first `n` trips is the restriction of the tile's function to its rows. -/
theorem pieces_agree (hchunk : ChunkLaw) (c : Dev nD) (i : grid0.Coords)
    (arg1 : Memref sig .tc .vmem S1024x64 .f32) (harg1 : arg1.IsWhole) (arg2 : Memref sig .tc .vmem S64x512 .f32) (harg2 : arg2.IsWhole)
    (arg3 : Memref sig .tc .vmem S1024x512 .f32) (harg3 : arg3.IsWhole) (x0 : Vec Ideal S1024x64 .f32) (x1 : Vec Ideal S64x512 .f32) :
    ∀ n : ℕ, n ≤ k0_t1_loop.trips →
      ∀ pc ∈ pb_k0_t1 (F := Ideal) Variants.none c none i arg1 harg1 arg2 harg2 arg3 harg3
          (View.readAt (Elt Ideal) arg2.view (Rect.unit (s := S64x512) ![0, 0] S64x512.size inb_S64x512_S64x512_0_0).toLoadRect (harg2.unread x1))
          (harg1.unread x0) n,
        ∀ x : pc.1.shape.Idx, pc.2 x = blockOf x0 x1 (pc.1.emb x)
  | 0, _ => fun pc hpc => absurd hpc (by rw [pb_k0_t1]; exact List.not_mem_nil)
  | n + 1, hn => fun pc hpc x => by
    have hk : n < k0_t1_loop.trips := hn
    have hs := pb_k0_t1_succ (F := Ideal) Variants.none c none i arg1 harg1 arg2 harg2 arg3 harg3
      (View.readAt (Elt Ideal) arg2.view (Rect.unit (s := S64x512) ![0, 0] S64x512.size inb_S64x512_S64x512_0_0).toLoadRect (harg2.unread x1))
      (harg1.unread x0) ⟨n, hk⟩
    rw [show (⟨n, hk⟩ : Fin k0_t1_loop.trips).val + 1 = n + 1 from rfl] at hs
    rw [hs, tripL_eq] at hpc
    rcases List.mem_append.mp hpc with h | h
    · obtain rfl := List.mem_singleton.mp h
      exact trip_piece_agrees hchunk arg1 harg1 arg2 harg2 x0 x1 ⟨n, hk⟩ x
    · exact pieces_agree hchunk c i arg1 harg1 arg2 harg2 arg3 harg3 x0 x1 n (Nat.le_of_lt hk) pc h x

/-- THE OUTPUT TILE after the body: the softmax rows of the tile of states against the codebook block. -/
theorem out_eq (hchunk : ChunkLaw) (c : Dev nD) (i : grid0.Coords)
    (arg1 : Memref sig .tc .vmem S1024x64 .f32) (harg1 : arg1.IsWhole) (arg2 : Memref sig .tc .vmem S64x512 .f32) (harg2 : arg2.IsWhole)
    (arg3 : Memref sig .tc .vmem S1024x512 .f32) (harg3 : arg3.IsWhole) (x0 : Vec Ideal S1024x64 .f32) (x1 : Vec Ideal S64x512 .f32) :
    out0_A_2 (F := Ideal) c i arg1 harg1 arg2 harg2 arg3 harg3 x0 x1 = blockOf x0 x1 := by
  funext y
  unfold out0_A_2
  refine View.read_writes_apply_of_pieces _ _ (blockOf x0 x1) _ (fun pc hpc x => ?_) y
    (cover0_A_2 c i arg1 harg1 arg2 harg2 arg3 harg3 x0 x1 y)
  rw [run_pieces_eq] at hpc
  exact pieces_agree hchunk c i arg1 harg1 arg2 harg2 arg3 harg3 x0 x1 k0_t1_loop.trips (Nat.le_refl _) pc hpc x

end Cert.KernelIdeal.Block

end
-- ==== Proof.ArrayValue.lean ====
/-
  From the output tile to the whole result array.  Grid point `t` of the 8 stages rows `1024·t … 1024·t + 1023` of the
  states and the whole transposed codebook, and writes its output tile back over rows `1024·t …` of the result.  The
  tile is the softmax rows of the staged states against the staged codebook, that is the restriction to those rows of
  ONE function of the argument arrays, `G`; the 8 tiles cover the result array, so the array ends holding `G`.
  The transposed codebook is what the host's transpose makes of the second argument before the region: entry `(k, c)`
  of it is entry `(c, k)` of the argument.
-/
import proofs.«117230_j1503238553823_2_alg».proof.Proof.Gen.KernelIdeal.Value
import proofs.«117230_j1503238553823_2_alg».proof.Proof.BlockValue
import proofs.«117230_j1503238553823_2_alg».proof.Proof.Spec
import Idealize.ShloMosaic.Lib.Pipeline.Value
import Idealize.ShloMosaic.Lib.StableHlo.Run
import Idealize.ShloMosaic.Lib.ValueIdx

noncomputable section

namespace Cert.KernelIdeal.Array

open Cert.KernelIdeal Cert.KernelIdeal.Gen Cert.KernelIdeal.Value Cert.KernelIdeal.Block Cert.L1Softmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the grid: point `t` takes tile `t` of the states and of the result, and always the one
    block of the codebook. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 8 := by
  have h := t.isLt
  have hN : cfg0.N = 8 := N_0
  omega

/-- The codebook as the region finds it: the host's transpose of the second argument. -/
theorem V_codebook (c : Dev nD) :
    (V m c main_v0 : S64x512.Idx → EReal)
      = transpose S64x512 [1, 0] (m ((c : Thread nD τ).loc main_arg1)) transposes_S512x64_S64x512_1_0 := by
  dsimp only [V, hostOps0]
  after_results

/-- Row `P` of the tile of states staged at point `t` is row `1024·t + P` of the first argument. -/
theorem states_tile (c : Dev nD) (t : Fin cfg0.N) (P : Fin 1024) (k : Fin 64) :
    (iblk m c 0 t : Vec Ideal S1024x64 .f32) (ix2 P k)
      = (m ((c : Thread nD τ).loc main_arg0) : S8192x64.Idx → EReal)
          (ix2 (⟨1024 * t.val + P.val, by have := t_lt t; have := P.isLt; omega⟩ : Fin 8192) k) := by
  obtain ⟨e0, e1, -, -, -, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * P.val = 1024 * t.val + P.val; omega
  | ⟨1, _⟩ => show win0_0.index t (1 : Fin 2) * 64 + 1 * k.val = k.val; omega

/-- Entry `(k, q)` of the codebook block staged at any point is entry `(q, k)` of the second argument. -/
theorem codebook_tile (c : Dev nD) (t : Fin cfg0.N) (k : Fin 64) (q : Fin 512) :
    (iblk m c 1 t : Vec Ideal S64x512 .f32) (ix2 k q)
      = (m ((c : Thread nD τ).loc main_arg1) : S512x64.Idx → EReal) (ix2 q k) := by
  obtain ⟨-, -, e2, e3, -, -⟩ := idx_facts t
  unfold iblk
  rw [View.read_apply]
  show (V m c main_v0 : S64x512.Idx → EReal) _ = _
  rw [V_codebook]
  refine transpose_apply _ _ _ _ (ix2 q k) fun b => ?_
  match b with
  | ⟨0, _⟩ => show k.val = win0_1.index t (0 : Fin 2) * 64 + 1 * k.val; omega
  | ⟨1, _⟩ => show q.val = win0_1.index t (1 : Fin 2) * 512 + 1 * q.val; omega

/-- A tile of softmax rows whose states are rows `1024·T + P` of `X` and whose codebook block is the transpose of `PC`
    is the restriction of `G X PC` to those rows. -/
theorem tile_is_G (X : S8192x64.Idx → EReal) (PC : S512x64.Idx → EReal)
    (b0 : S1024x64.Idx → EReal) (b1 : S64x512.Idx → EReal) (T : ℕ) (hT : T < 8)
    (h0 : ∀ (P : Fin 1024) (k : Fin 64),
      b0 (ix2 P k) = X (ix2 (⟨1024 * T + P.val, by have := P.isLt; omega⟩ : Fin 8192) k))
    (h1 : ∀ (k : Fin 64) (q : Fin 512), b1 (ix2 k q) = PC (ix2 q k)) (P : Fin 1024) (q : Fin 512) :
    blockOf b0 b1 (ix2 P q) = G X PC (ix2 (⟨1024 * T + P.val, by have := P.isLt; omega⟩ : Fin 8192) q) := by
  rw [blockOf_ix2, G_ix2]
  have e0 : (fun k => b0 (ix2 P k)) = fun k => X (ix2 (⟨1024 * T + P.val, by have := P.isLt; omega⟩ : Fin 8192) k) :=
    funext fun k => h0 P k
  have e1 : (fun (c : Fin 512) (k : Fin 64) => b1 (ix2 k c)) = fun c k => PC (ix2 c k) :=
    funext fun c => funext fun k => h1 k c
  rw [e0, e1]

/-- WHAT POINT `t` WRITES BACK is tile `t` of `G` of the two arguments. -/
theorem flushed_eq (hchunk : ChunkLaw) (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, -, -, e4, e5⟩ := idx_facts t
  rw [flushed2_A, out_eq hchunk]
  funext j
  obtain ⟨P, q, rfl⟩ : ∃ (P : Fin 1024) (q : Fin 512), j = ix2 P q := ⟨j 0, j 1, eq_ix2 j⟩
  show blockOf (iblk m c 0 t : Vec Ideal S1024x64 .f32) (iblk m c 1 t : Vec Ideal S64x512 .f32) (ix2 P q)
    = G (m ((c : Thread nD τ).loc main_arg0)) (m ((c : Thread nD τ).loc main_arg1)) (((cfg0.win 2).blk t).view.emb (ix2 P q))
  rw [tile_is_G _ _ _ _ t.val (t_lt t) (states_tile m c t) (codebook_tile m c t) P q]
  refine congrArg _ (funext fun a => Fin.ext ?_)
  match a with
  | ⟨0, _⟩ => show 1024 * t.val + P.val = win0_2.index t (0 : Fin 2) * 1024 + 1 * P.val; omega
  | ⟨1, _⟩ => show q.val = win0_2.index t (1 : Fin 2) * 512 + 1 * q.val; omega

/-- An index of the result array is in point `t`'s tile iff each coordinate is in the tile's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v1).slice (win0_2.rect t)).set ↔ _
  rw [View.set_slice_whole, Rect.mem_set_unit]
  exact Iff.rfl

/-- Every index of the result array is in the tile of the point its row number divided by 1024 names. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  obtain ⟨-, -, -, -, e4, e5⟩ := idx_facts t
  have ht : t.val = (i 0).val / 1024 := rfl
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- THE RESULT ARRAY after the run: `G` of the two arguments. -/
theorem final (hchunk : ChunkLaw) (c : Dev nD) :
    (dats m 0 c).arrAt 2 cfg0.N
      = G (m ((c : Thread nD τ).loc main_arg0)) (m ((c : Thread nD τ).loc main_arg1)) :=
  (dats m 0 c).arrAt_eq_of_cover 2 _ (fun t _ => flushed_eq m hchunk c t) cover

/-- The kernel's run, read: the result at `G` of the arguments, the arguments unchanged. -/
theorem run (hchunk : ChunkLaw) :
    θ_run defs (onTc (τ := τ) (main (F := Ideal))) ⟨m, fun _ => 0, ρ⟩ fun r => ∀ c : Dev nD,
      r.2.mem ((c : Thread nD τ).loc main_v1)
          = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hchunk c), (h c).2⟩) (run_blocks m ρ)

end Cert.KernelIdeal.Array

end
-- ==== Proof.RefValue.lean ====
/-
  The reference program, read stage by stage over the extended reals, computes the specification function.

  For states x : [8192, 64] and a codebook pc : [512, 64] the program forms the three-axis array of differences
  x[r, k] − pc[c, k], takes absolute values, sums over the channels k to the L1 distance d[r, c], squares, negates and
  halves it to the score u[r, c], takes the row maximum m[r] of the scores, exponentiates u[r, c] − m[r], sums the
  exponentials along each row, and divides.  Each stage is read at an entry given by its coordinates; the last one is
  the stabilised softmax of the scores of row r at cell c, which is the specification's entry (r, c).
-/
import proofs.«117230_j1503238553823_2_alg».proof.Proof.Spec
import proofs.«117230_j1503238553823_2_alg».proof.Proof.Gen.ReferenceIdeal.Read
import proofs.«117230_j1503238553823_2_alg».proof.Proof.LibRowMax
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.L1Softmax

/-- The states, an `[8192, 64]` array of extended reals. -/
abbrev States : Type := (⟨S8192x64, .f32⟩ : BufTy).Contents (Elt Ideal)
/-- The codebook, a `[512, 64]` array of extended reals, one row per cell. -/
abbrev Codebook : Type := (⟨S512x64, .f32⟩ : BufTy).Contents (Elt Ideal)

/-- Row `r` of the states, as a function of the channel. -/
abbrev rowOf (x : States) (r : Fin 8192) : Fin 64 → EReal := fun k => x (ix2 r k)
/-- Row `c` of the codebook, as a function of the channel. -/
abbrev cellOf (pc : Codebook) (c : Fin 512) : Fin 64 → EReal := fun k => pc (ix2 c k)

/-- The absolute differences: entry `(r, c, k)` is `|x[r, k] − pc[c, k]|`. -/
theorem absdiff_ix3 (x : States) (pc : Codebook) (r : Fin 8192) (c : Fin 512) (k : Fin 64) :
    val_main_v5 (F := Ideal) x pc (ix3 r c k) = absE (x (ix2 r k) - pc (ix2 c k)) := by
  rw [val_main_v5_apply, val_main_v4_apply, val_main_v2_apply, val_main_v0_apply, val_main_v3_apply,
    val_main_v1_apply]
  have h0 : idx_main_v0 (idx_main_v2 (ix3 r c k)) = ix2 r k := by
    funext a; apply Fin.ext
    match a with
    | ⟨0, _⟩ => rfl
    | ⟨1, _⟩ => rfl
  have h1 : idx_main_v1 (idx_main_v3 (ix3 r c k)) = ix2 c k := by
    funext a; apply Fin.ext
    match a with
    | ⟨0, _⟩ => rfl
    | ⟨1, _⟩ => rfl
  rw [h0, h1]
  rfl

/-- The sum of the absolute differences over the channels: entry `(r, c)` is the L1 distance of row `r` of the states
    and row `c` of the codebook. -/
theorem dist_ix2 (x : States) (pc : Codebook) (r : Fin 8192) (c : Fin 512) :
    val_main_v6 (F := Ideal) x pc (ix2 r c) = Cert.L1Softmax.dist (rowOf x r) (cellOf pc c) := by
  rw [val_main_v6_apply, val_main_cst_apply]
  show Ideal.ofBits .f32 0x00000000#32 + _ = _
  rw [Ideal.ofBits_zero_f32, zero_add]
  unfold Cert.L1Softmax.dist
  refine Finset.sum_congr rfl fun k _ => ?_
  have h : idx_main_v6 (ix2 r c) k = ix3 r c k := by
    funext a; apply Fin.ext
    match a with
    | ⟨0, _⟩ => rfl
    | ⟨1, _⟩ => rfl
    | ⟨2, _⟩ => rfl
  rw [h, absdiff_ix3]

/-- The scores: entry `(r, c)` is minus the squared L1 distance, halved. -/
theorem score_ix2 (x : States) (pc : Codebook) (r : Fin 8192) (c : Fin 512) :
    val_main_v10 (F := Ideal) x pc (ix2 r c) = score (rowOf x r) (cellOf pc c) := by
  rw [val_main_v10_apply, val_main_v8_apply, val_main_v7_apply, val_main_v9_apply, val_main_cst_0_apply, dist_ix2]
  rfl

/-- The maximum of the scores along a row, taken from −∞: entry `r` is the supremum of row `r`'s scores. -/
theorem rowmax_ix1 (x : States) (pc : Codebook) (r : Fin 8192) :
    val_main_v11 (F := Ideal) x pc (ix1 r) = Finset.univ.sup fun c : Fin 512 => score (rowOf x r) (cellOf pc c) := by
  unfold val_main_v11
  have h : S8192x512.Reduces [1] S8192 := by decide
  refine (Host.reduce_eq_fold_single FloatOps.maximumf _ _ Gen.reducesTo_S8192x512_S8192_d1 h Gen.h_S_ (ix1 r)).trans ?_
  have hf : (val_main_v10 (F := Ideal) x pc ∘ h.lift (ix1 r))
      = fun c : Fin 512 => score (rowOf x r) (cellOf pc c) :=
    funext fun c => (congrArg (val_main_v10 (F := Ideal) x pc) (funext fun ax => Fin.ext (by
      match ax with
      | ⟨0, _⟩ => rfl
      | ⟨1, _⟩ => rfl))).trans (score_ix2 x pc r c)
  rw [hf]
  show (Finset.univ : Finset (Fin 512)).fold max (Ideal.ofBits .f32 0xFF800000#32) _ = _
  rw [Cert.LibRowMax.ofBits_neg_inf_f32]
  exact Cert.LibRowMax.fold_max_bot_eq_sup _ _

/-- The larger of −∞ and the row maximum is the row maximum: entry `r` is the supremum of row `r`'s scores. -/
theorem rowmax'_ix1 (x : States) (pc : Codebook) (r : Fin 8192) :
    val_main_v13 (F := Ideal) x pc (ix1 r) = Finset.univ.sup fun c : Fin 512 => score (rowOf x r) (cellOf pc c) := by
  rw [val_main_v13_apply, val_main_v12_apply, val_main_cst_2_apply, rowmax_ix1]
  show max (Ideal.ofBits .f32 0xFF800000#32) _ = _
  rw [Cert.LibRowMax.ofBits_neg_inf_f32]
  exact max_bot_left _

/-- The row maximum spread across the columns: entry `(r, c)` is the supremum of row `r`'s scores. -/
theorem rowmax_spread_ix2 (x : States) (pc : Codebook) (r : Fin 8192) (c : Fin 512) :
    val_main_v15 (F := Ideal) x pc (ix2 r c) = Finset.univ.sup fun j : Fin 512 => score (rowOf x r) (cellOf pc j) := by
  rw [val_main_v15_apply, val_main_v14_apply]
  have h : idx_main_v14 (idx_main_v15 (ix2 r c)) = ix1 r := by
    funext a; apply Fin.ext
    match a with
    | ⟨0, _⟩ => rfl
  rw [h, rowmax'_ix1]

/-- The exponentials: entry `(r, c)` is the exponential of the score less the row's supremum. -/
theorem exp_ix2 (x : States) (pc : Codebook) (r : Fin 8192) (c : Fin 512) :
    val_main_v17 (F := Ideal) x pc (ix2 r c)
      = Ideal.exp (score (rowOf x r) (cellOf pc c) - Finset.univ.sup fun j : Fin 512 => score (rowOf x r) (cellOf pc j)) := by
  rw [val_main_v17_apply, val_main_v16_apply, score_ix2, rowmax_spread_ix2]
  rfl

/-- The sum of the exponentials along a row: entry `r` is the softmax's denominator for row `r`. -/
theorem expsum_ix1 (x : States) (pc : Codebook) (r : Fin 8192) :
    val_main_v18 (F := Ideal) x pc (ix1 r)
      = ∑ c : Fin 512, Ideal.exp (score (rowOf x r) (cellOf pc c)
          - Finset.univ.sup fun j : Fin 512 => score (rowOf x r) (cellOf pc j)) := by
  rw [val_main_v18_apply, val_main_cst_3_apply]
  show Ideal.ofBits .f32 0x00000000#32 + _ = _
  rw [Ideal.ofBits_zero_f32, zero_add]
  refine Finset.sum_congr rfl fun c _ => ?_
  have h : idx_main_v18 (ix1 r) c = ix2 r c := by
    funext a; apply Fin.ext
    match a with
    | ⟨0, _⟩ => rfl
    | ⟨1, _⟩ => rfl
  rw [h, exp_ix2]

/-- The row sums spread across the columns: entry `(r, c)` is the softmax's denominator for row `r`. -/
theorem expsum_spread_ix2 (x : States) (pc : Codebook) (r : Fin 8192) (c : Fin 512) :
    val_main_v20 (F := Ideal) x pc (ix2 r c)
      = ∑ j : Fin 512, Ideal.exp (score (rowOf x r) (cellOf pc j)
          - Finset.univ.sup fun j' : Fin 512 => score (rowOf x r) (cellOf pc j')) := by
  rw [val_main_v20_apply, val_main_v19_apply]
  have h : idx_main_v19 (idx_main_v20 (ix2 r c)) = ix1 r := by
    funext a; apply Fin.ext
    match a with
    | ⟨0, _⟩ => rfl
  rw [h, expsum_ix1]

/-- The reference's result is the specification: entry `(r, c)` is the stabilised softmax, at cell `c`, of the scores of
    row `r` of the states against the codebook's rows. -/
theorem result_eq (x : (⟨Cert.ReferenceIdeal.S8192x64, .f32⟩ : BufTy).Contents (Elt Ideal))
    (pc : (⟨Cert.ReferenceIdeal.S512x64, .f32⟩ : BufTy).Contents (Elt Ideal)) :
    Cert.ReferenceIdeal.Read.val_main_v21 (F := Ideal) x pc = Cert.L1Softmax.G x pc := by
  funext i
  obtain ⟨r, c, rfl⟩ : ∃ (r : Fin 8192) (c : Fin 512), i = ix2 r c := ⟨i 0, i 1, eq_ix2 i⟩
  rw [val_main_v21_apply, exp_ix2, expsum_spread_ix2, G_ix2]
  rfl

end Cert.ReferenceIdeal.RefValue

end
-- ==== Proof.lean ====
/-
  The certificate of the L1-distance softmax kernel against its jnp reference.

  Both programs take states `x : [8192, 64]` and a codebook `pc : [512, 64]` and return, at `(r, c)`, the softmax along
  the cells of the scores `u[r, c] = −(Σ_k |x[r, k] − pc[c, k]|)² / 2`, in the stabilised form
  `exp (u − max_c u) / Σ_c exp (u − max_c u)`.  The kernel walks the rows in 8 tiles of 1024 and each tile in 32 chunks
  of 32 rows, accumulating the distance channel by channel from zero against the transposed codebook; the reference
  forms the three-axis array of differences and reduces it.  Over the extended reals the two are one function of the
  arguments (`Cert.L1Softmax.G`): a sum of 64 terms does not depend on the order it is accumulated in, `0 − y = −y`, a
  maximum taken from −∞ is the supremum, and every other operation is the same textbook operation on both sides.  No
  finiteness of the inputs is used.

  The frames of the two kernel programs and the reference's run are the generated ones; the kernel's value is read off
  its frame run (the stores of the row loop, tile by tile), the reference's off its run stage by stage.
-/
import proofs.«117230_j1503238553823_2_alg».proof.Defs
import proofs.«117230_j1503238553823_2_alg».proof.Proof.Gen.Kernel
import proofs.«117230_j1503238553823_2_alg».proof.Proof.Gen.Kernel.Skeleton
import proofs.«117230_j1503238553823_2_alg».proof.Proof.Gen.Kernel.Loops
import proofs.«117230_j1503238553823_2_alg».proof.Proof.Gen.Kernel.Launch
import proofs.«117230_j1503238553823_2_alg».proof.Proof.Gen.Kernel.Points
import proofs.«117230_j1503238553823_2_alg».proof.Proof.Gen.Kernel.Frame
import proofs.«117230_j1503238553823_2_alg».proof.Proof.Gen.KernelIdeal
import proofs.«117230_j1503238553823_2_alg».proof.Proof.Gen.KernelIdeal.Skeleton
import proofs.«117230_j1503238553823_2_alg».proof.Proof.Gen.KernelIdeal.Loops
import proofs.«117230_j1503238553823_2_alg».proof.Proof.Gen.KernelIdeal.Launch
import proofs.«117230_j1503238553823_2_alg».proof.Proof.Gen.KernelIdeal.Points
import proofs.«117230_j1503238553823_2_alg».proof.Proof.Gen.KernelIdeal.Frame
import proofs.«117230_j1503238553823_2_alg».proof.Proof.Gen.ReferenceIdeal
import proofs.«117230_j1503238553823_2_alg».proof.Proof.Gen.Pre_finite_inputs
import proofs.«117230_j1503238553823_2_alg».proof.Proof.Gen.KernelIdeal.Value
import proofs.«117230_j1503238553823_2_alg».proof.Proof.Gen.ReferenceIdeal.Run
import proofs.«117230_j1503238553823_2_alg».proof.Proof.Gen.ReferenceIdeal.Read
import proofs.«117230_j1503238553823_2_alg».proof.Proof.ChunkValue
import proofs.«117230_j1503238553823_2_alg».proof.Proof.ArrayValue
import proofs.«117230_j1503238553823_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel's result array ends at `G` of them (the tiles of softmax
    rows cover it) and the reference's at its last stage, which is `G` of them too. -/
theorem algebraic : Cert.algebraic_KernelIdeal_ReferenceIdeal := by
  intro m ρ m' ρ' _ hagree
  refine ⟨_, Cert.KernelIdeal.Array.run m ρ Cert.KernelIdeal.ChunkValue.chunkPay_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
